-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S3072x1024 : Shape := ⟨2, ![3072, 1024]⟩
abbrev S3072 : Shape := ⟨1, ![3072]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg8 : FVec F S3072 .f32) (main_arg9 : FVec F S3072 .f32) (main_v33 : IVec S_ 1) : IVec S_ 1 :=
  let main_v34 : FVec F S3072 .f32 := Host.absf main_arg8
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg9
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  main_v43

def fn_part1 {F : FTy → Type} [FloatOps F] (main_arg5 : FVec F S3072 .f32) (main_arg6 : FVec F S3072x1024 .f32) (main_arg7 : FVec F S3072x1024 .f32) (main_arg8 : FVec F S3072 .f32) (main_arg9 : FVec F S3072 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072x1024 .f32 := Host.absf main_arg6
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S3072x1024 .f32 := Host.absf main_arg7
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg8 main_arg9 main_v33

def fn {F : FTy → Type} [FloatOps F] (main_arg0 : FVec F S16x2048x1024 .f32) (main_arg1 : IVec S16x2048 32) (main_arg2 : FVec F S3072x1024 .f32) (main_arg3 : FVec F S3072x1024 .f32) (main_arg4 : FVec F S3072 .f32) (main_arg5 : FVec F S3072 .f32) (main_arg6 : FVec F S3072x1024 .f32) (main_arg7 : FVec F S3072x1024 .f32) (main_arg8 : FVec F S3072 .f32) (main_arg9 : FVec F S3072 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg4
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg5 main_arg6 main_arg7 main_arg8 main_arg9 main_v13 main_v16
-- ==== Kernel.lean ====
abbrev S16x2048x1024 : Shape := ⟨3, ![16, 2048, 1024]⟩
abbrev S16x2048 : Shape := ⟨2, ![16, 2048]⟩
abbrev S3072x1024 : Shape := ⟨2, ![3072, 1024]⟩
abbrev S3072 : Shape := ⟨1, ![3072]⟩
abbrev S2048x16x1024 : Shape := ⟨3, ![2048, 16, 1024]⟩
abbrev S2048x16 : Shape := ⟨2, ![2048, 16]⟩
abbrev S2048x16x1 : Shape := ⟨3, ![2048, 16, 1]⟩
abbrev S1024x3072 : Shape := ⟨2, ![1024, 3072]⟩
abbrev S32x16x1024 : Shape := ⟨3, ![32, 16, 1024]⟩
abbrev S32x16x1 : Shape := ⟨3, ![32, 16, 1]⟩
abbrev S512x1024 : Shape := ⟨2, ![512, 1024]⟩
abbrev S512x3072 : Shape := ⟨2, ![512, 3072]⟩
abbrev S1x3072 : Shape := ⟨2, ![1, 3072]⟩
abbrev S1024 : Shape := ⟨1, ![1024]⟩
abbrev S1x1024 : Shape := ⟨2, ![1, 1024]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S2048x16x1024, .f32⟩
  | .hbm, ⟨11, _⟩ => ⟨S2048x16x1024, .bf16⟩
  | .hbm, ⟨12, _⟩ => ⟨S2048x16, .i32⟩
  | .hbm, ⟨13, _⟩ => ⟨S2048x16, .f32⟩
  | .hbm, ⟨14, _⟩ => ⟨S2048x16x1, .f32⟩
  | .hbm, ⟨15, _⟩ => ⟨S1024x3072, .f32⟩
  | .hbm, ⟨16, _⟩ => ⟨S1024x3072, .bf16⟩
  | .hbm, ⟨17, _⟩ => ⟨S1024x3072, .f32⟩
  | .hbm, ⟨18, _⟩ => ⟨S1024x3072, .bf16⟩
  | .hbm, ⟨19, _⟩ => ⟨S2048x16x1024, .f32⟩
  | .local _ .vmem, ⟨0, _⟩ => ⟨S32x16x1024, .bf16⟩
  | .local _ .vmem, ⟨1, _⟩ => ⟨S32x16x1024, .bf16⟩
  | .local _ .vmem, ⟨2, _⟩ => ⟨S32x16x1, .f32⟩
  | .local _ .vmem, ⟨3, _⟩ => ⟨S32x16x1, .f32⟩
  | .local _ .vmem, ⟨4, _⟩ => ⟨S1024x3072, .bf16⟩
  | .local _ .vmem, ⟨5, _⟩ => ⟨S3072, .f32⟩
  | .local _ .vmem, ⟨6, _⟩ => ⟨S3072, .f32⟩
  | .local _ .vmem, ⟨7, _⟩ => ⟨S1024x3072, .bf16⟩
  | .local _ .vmem, ⟨8, _⟩ => ⟨S3072, .f32⟩
  | .local _ .vmem, ⟨9, _⟩ => ⟨S3072, .f32⟩
  | .local _ .vmem, ⟨10, _⟩ => ⟨S32x16x1024, .f32⟩
  | .local _ .vmem, ⟨11, _⟩ => ⟨S32x16x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S16x2048x1024_S2048x16x1024_1_0_2 : S16x2048x1024.Transposes [1, 0, 2] S2048x16x1024
  bitsLt_bf16_f32 : FTy.bits .bf16 < FTy.bits .f32
  transposes_S16x2048_S2048x16_1_0 : S16x2048.Transposes [1, 0] S2048x16
  bcast_S2048x16_S2048x16x1_0_1 : S2048x16.BroadcastsInDim S2048x16x1 (![0, 1] : Fin 2 → Fin S2048x16x1.rank)
  transposes_S3072x1024_S1024x3072_1_0 : S3072x1024.Transposes [1, 0] S1024x3072
  inb_S32x16x1024_S32x16x1024_0_0_0 : ∀ a, (![0, 0, 0] : Fin 3 → Nat) a + S32x16x1024.size a ≤ S32x16x1024.size a
  h_S32x16x1024 : 0 < S32x16x1024.numel
  shapeCasts_S32x16x1024_S32x16x1024 : S32x16x1024.ShapeCasts S32x16x1024
  shapeCasts_S32x16x1024_S512x1024 : S32x16x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  slices_S3072_o0_S1024 : S3072.Slices ![0] S1024
  slices_S3072_o1024_S1024 : S3072.Slices ![1024] S1024
  slices_S3072_o2048_S1024 : S3072.Slices ![2048] S1024
  shapeCasts_S1024_S1x1024 : S1024.ShapeCasts S1x1024
  broadcasts_S1x1024_S512x1024 : S1x1024.Broadcasts S512x1024
  inb_S32x16x1_S32x16x1_0_0_0 : ∀ a, (![0, 0, 0] : Fin 3 → Nat) a + S32x16x1.size a ≤ S32x16x1.size a
  h_S32x16x1 : 0 < S32x16x1.numel
  shapeCasts_S32x16x1_S32x16x1 : S32x16x1.ShapeCasts S32x16x1
  shapeCasts_S32x16x1_S512x1 : S32x16x1.ShapeCasts S512x1
  broadcasts_S512x1_S512x1024 : S512x1.Broadcasts S512x1024
  shapeCasts_S512x1024_S32x16x1024 : S512x1024.ShapeCasts S32x16x1024
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x1024.size a ≤ S2048x16x1024.size a
  hwx0_0 : ∀ i : grid0.Coords, EltTy.bits .bf16 = 32 ∨ (Rect.block (s := S2048x16x1024) S32x16x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x1.size a ≤ S2048x16x1.size a
  hwx0_1 : ∀ i : grid0.Coords, EltTy.bits .f32 = 32 ∨ (Rect.block (s := S2048x16x1) S32x16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .bf16 = 32 ∨ (Rect.block (s := S1024x3072) S1024x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072.size a ≤ S3072.size a
  hwx0_6 : ∀ i : grid0.Coords, EltTy.bits .f32 = 32 ∨ (Rect.block (s := S3072) S3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072.size a ≤ S3072.size a
  hwx0_7 : ∀ i : grid0.Coords, EltTy.bits .f32 = 32 ∨ (Rect.block (s := S3072) S3072.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x16x1024.size a ≤ S2048x16x1024.size a
  hwx0_8 : ∀ i : grid0.Coords, EltTy.bits .f32 = 32 ∨ (Rect.block (s := S2048x16x1024) S32x16x1024.size (cc0_transform_8 i) (hinb0_8 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_v1) S32x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S32x16x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S3072x1024 : Shape := ⟨2, ![3072, 1024]⟩
abbrev S3072 : Shape := ⟨1, ![3072]⟩
abbrev S16x2048x3072 : Shape := ⟨3, ![16, 2048, 3072]⟩
abbrev S1x1x3072 : Shape := ⟨3, ![1, 1, 3072]⟩
abbrev S1024 : Shape := ⟨1, ![1024]⟩
abbrev S1x1x1024 : Shape := ⟨3, ![1, 1, 1024]⟩
abbrev S_ : Shape := ⟨0, ![]⟩
abbrev S16x2048x1 : Shape := ⟨3, ![16, 2048, 1]⟩
abbrev S2048x16x1024 : Shape := ⟨3, ![2048, 16, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S16x2048x3072, .f32⟩
  | .hbm, ⟨11, _⟩ => ⟨S1x1x3072, .f32⟩
  | .hbm, ⟨12, _⟩ => ⟨S16x2048x3072, .f32⟩
  | .hbm, ⟨13, _⟩ => ⟨S16x2048x3072, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x3072, .f32⟩
  | .hbm, ⟨52, _⟩ => ⟨S1x1x3072, .f32⟩
  | .hbm, ⟨53, _⟩ => ⟨S16x2048x3072, .f32⟩
  | .hbm, ⟨54, _⟩ => ⟨S16x2048x3072, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048x1024, .f32⟩
  | .hbm, ⟨82, _⟩ => ⟨S16x2048x1024, .f32⟩
  | .hbm, ⟨83, _⟩ => ⟨S1x1x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S_, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048, .f32⟩
  | .hbm, ⟨93, _⟩ => ⟨S16x2048x1, .f32⟩
  | .hbm, ⟨94, _⟩ => ⟨S16x2048x1024, .f32⟩
  | .hbm, ⟨95, _⟩ => ⟨S16x2048x1024, .f32⟩
  | .hbm, ⟨96, _⟩ => ⟨S2048x16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S16x2048x3072_0_1_2 : S1x1x3072.BroadcastsInDim S16x2048x3072 (![0, 1, 2] : Fin 3 → Fin S16x2048x3072.rank)
  slices_S16x2048x3072_S16x2048x1024_0_0_0 : S16x2048x3072.Slices ![0, 0, 0] S16x2048x1024
  slices_S16x2048x3072_S16x2048x1024_0_0_1024 : S16x2048x3072.Slices ![0, 0, 1024] S16x2048x1024
  slices_S16x2048x3072_S16x2048x1024_0_0_2048 : S16x2048x3072.Slices ![0, 0, 2048] S16x2048x1024
  slices_S3072_S1024_0 : S3072.Slices ![0] S1024
  slices_S3072_S1024_1024 : S3072.Slices ![1024] S1024
  slices_S3072_S1024_2048 : S3072.Slices ![2048] S1024
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x1024 : S_.BroadcastsInDim S16x2048x1024 (![] : Fin 0 → Fin S16x2048x1024.rank)
  bcast_S16x2048_S16x2048x1_0_1 : S16x2048.BroadcastsInDim S16x2048x1 (![0, 1] : Fin 2 → Fin S16x2048x1.rank)
  bcast_S16x2048x1_S16x2048x1024_0_1_2 : S16x2048x1.BroadcastsInDim S16x2048x1024 (![0, 1, 2] : Fin 3 → Fin S16x2048x1024.rank)
  transposes_S16x2048x1024_S2048x16x1024_1_0_2 : S16x2048x1024.Transposes [1, 0, 2] S2048x16x1024
  dot_S16x2048x1024_S3072x1024_S16x2048x3072_2_1_01_0_n_n_wf : DotDims.WF S16x2048x1024 S3072x1024 S16x2048x3072 [2] [1] [0, 1] [0] [] []

variable [Facts₀]

def dot_S16x2048x1024_S3072x1024_S16x2048x3072_2_1_01_0_n_n : DotDims S16x2048x1024 S3072x1024 S16x2048x3072 where
  lhsContracting := [2]
  rhsContracting := [1]
  lhsNonContracting := [0, 1]
  rhsNonContracting := [0]
  lhsBatch := []
  rhsBatch := []
  wf := dot_S16x2048x1024_S3072x1024_S16x2048x3072_2_1_01_0_n_n_wf

class Facts : Prop extends Facts₀ where

variable [Facts]
-- ==== Proof.GruSpec.lean ====
/-
  The mathematics both programs compute, stated once over plain index types.

  A GRU cell started from the zero hidden state has no recurrent matrix product left: with input pre-activations
  g = W x + b (3·1024 stacked rows: reset, update, candidate) and hidden bias bh,
      r = σ(g_r + bh_r),   z = σ(g_z + bh_z),   n = tanh(g_n + r · bh_n),   h = (1 − z) · n.
  Two such cells are stacked (the first cell's output is the second's input), and the result is multiplied by the
  integer mask of the (batch, time) position read as a number.  Everything is on the extended reals: sums and products
  are EReal's, σ and tanh the ideal ones, so no finiteness is needed anywhere.
-/
import Idealize.ShloMosaic.PureOps.Ideal
import Idealize.ShloMosaic.Lib.ValueIdx

noncomputable section

namespace Cert.GruSpec

open Idealize.ShloMosaic Idealize.ShloMosaic.ValueIdx

/-- The f32 word of 1.0 read at the ideal values. -/
def one : EReal := Ideal.ofBits .f32 0x3F800000#32

/-- That word denotes the number 1. -/
theorem one_eq : one = 1 := by
  unfold one
  simp [Ideal.ofBits, Ideal.ieee, -EReal.coe_mul]
  norm_num

/-- Row of the reset gate of hidden unit `h` among the 3·1024 stacked gate rows. -/
def gr (h : Fin 1024) : Fin 3072 := ⟨h.val, by have := h.isLt; omega⟩
/-- Row of the update gate of hidden unit `h`. -/
def gz (h : Fin 1024) : Fin 3072 := ⟨1024 + h.val, by have := h.isLt; omega⟩
/-- Row of the candidate gate of hidden unit `h`. -/
def gn (h : Fin 1024) : Fin 3072 := ⟨2048 + h.val, by have := h.isLt; omega⟩

/-- One GRU cell from the zero hidden state at hidden unit `h`: `g` the stacked input pre-activations, `bh` the hidden
    bias; `(1 − z) · n` with `z = σ(g_z + bh_z)`, `n = tanh(g_n + σ(g_r + bh_r) · bh_n)`. -/
def cell (g bh : Fin 3072 → EReal) (h : Fin 1024) : EReal :=
  (one - Ideal.logistic (g (gz h) + bh (gz h)))
    * Ideal.tanh (g (gn h) + Ideal.logistic (g (gr h) + bh (gr h)) * bh (gn h))

/-- The input pre-activation of gate row `j`: the row of `W` against the input vector, plus the input bias. -/
def aff (x : Fin 1024 → EReal) (W : Fin 3072 → Fin 1024 → EReal) (b : Fin 3072 → EReal) (j : Fin 3072) : EReal :=
  (∑ k : Fin 1024, x k * W j k) + b j

/-- One layer: the cell over its input pre-activations. -/
def layer (x : Fin 1024 → EReal) (W : Fin 3072 → Fin 1024 → EReal) (b bh : Fin 3072 → EReal) (h : Fin 1024) : EReal :=
  cell (aff x W b) bh h

/-- The mask word read as a number. -/
def maskVal (w : BitVec 32) : EReal := ((w.toInt : ℝ) : EReal)

/-- The whole result, time-major: at (time l, batch b, unit h) the two stacked cells applied to input row (b, l),
    times the mask at (b, l). -/
def G (x : (⟨3, ![16, 2048, 1024]⟩ : Shape).Idx → EReal) (mk : (⟨2, ![16, 2048]⟩ : Shape).Idx → BitVec 32)
    (W0 : (⟨2, ![3072, 1024]⟩ : Shape).Idx → EReal) (b0 bh0 : (⟨1, ![3072]⟩ : Shape).Idx → EReal)
    (W1 : (⟨2, ![3072, 1024]⟩ : Shape).Idx → EReal) (b1 bh1 : (⟨1, ![3072]⟩ : Shape).Idx → EReal) :
    (⟨3, ![2048, 16, 1024]⟩ : Shape).Idx → EReal := fun i =>
  layer (layer (fun k => x (ix3 (i 1 : Fin 16) (i 0 : Fin 2048) k)) (fun j k => W0 (ix2 j k)) (fun j => b0 (ix1 j)) (fun j => bh0 (ix1 j)))
      (fun j k => W1 (ix2 j k)) (fun j => b1 (ix1 j)) (fun j => bh1 (ix1 j)) (i 2 : Fin 1024)
    * maskVal (mk (ix2 (i 1 : Fin 16) (i 0 : Fin 2048)))

/-- The host's spelling of the sigmoid — one over one plus the exponential of the negation, with the f32 word 1.0 for
    both ones — is the ideal sigmoid on every extended real. -/
theorem logistic_spelt (x : EReal) : Ideal.div one (one + Ideal.exp (-x)) = Ideal.logistic x := by
  rw [one_eq]; rfl

/-- The cell as the host spells it at one element — the sigmoids written out as one over one plus the exponential of the
    negation, the ones the f32 word 1.0 — is `cell`'s expression of the six numbers it reads. -/
theorem cell_host (gR gZ gN bR bZ bN : EReal) :
    FloatOps.mulf (F := Ideal) (φ := .f32)
        (FloatOps.subf (FloatOps.ofBits .f32 0x3F800000#32)
          (FloatOps.hostDivf (FloatOps.ofBits .f32 0x3F800000#32)
            (FloatOps.addf (FloatOps.ofBits .f32 0x3F800000#32) (FloatOps.hostUnary .exp (FloatOps.hostNegf (FloatOps.addf gZ bZ))))))
        (FloatOps.hostUnary .tanh (FloatOps.addf gN
          (FloatOps.mulf (FloatOps.hostDivf (FloatOps.ofBits .f32 0x3F800000#32)
            (FloatOps.addf (FloatOps.ofBits .f32 0x3F800000#32) (FloatOps.hostUnary .exp (FloatOps.hostNegf (FloatOps.addf gR bR))))) bN)))
      = (one - Ideal.logistic (gZ + bZ)) * Ideal.tanh (gN + Ideal.logistic (gR + bR) * bN) := by
  show (one - Ideal.div one (one + Ideal.exp (-(gZ + bZ)))) * Ideal.tanh (gN + Ideal.div one (one + Ideal.exp (-(gR + bR))) * bN) = _
  rw [logistic_spelt, logistic_spelt]

/-- The cell as the vector unit spells it at one element, with its own sigmoid and hyperbolic tangent, is the same
    expression. -/
theorem cell_unit (gR gZ gN bR bZ bN : EReal) :
    FloatOps.mulf (F := Ideal) (φ := .f32)
        (FloatOps.subf (Scalar.ofBits .f32 0x3F800000#32) (FloatOps.logistic (FloatOps.addf gZ bZ)))
        (FloatOps.tanh (FloatOps.addf gN (FloatOps.mulf (FloatOps.logistic (FloatOps.addf gR bR)) bN)))
      = (one - Ideal.logistic (gZ + bZ)) * Ideal.tanh (gN + Ideal.logistic (gR + bR) * bN) := rfl

end Cert.GruSpec

end
-- ==== Proof.RefIsSpec.lean ====
/-
  The reference, read one element at a time, is the specification `Cert.GruSpec.G`.

  Its first einsum contracts the feature axis of the input against the columns of W_ih0; with the bias this is the stacked
  pre-activation `aff` of the input row (b, l).  The three lane slices pick the reset, update and candidate rows, the
  sigmoids are written out as 1 / (1 + exp(−·)) with the f32 word 1.0, and (1 − z) · n is the first cell.  The second einsum
  contracts that cell's output, so the second layer is the same cell over `aff` of the first layer's row.  The mask is
  converted, broadcast along the unit axis and multiplied in, and the final transpose swaps batch and time.
-/
import proofs.«166655_j13417477833140_2_alg».proof.Proof.Gen.ReferenceIdeal.Read
import proofs.«166655_j13417477833140_2_alg».proof.Proof.GruSpec

noncomputable section

namespace Cert.ReferenceIdeal.RefSpec

open Cert.ReferenceIdeal Cert.ReferenceIdeal.Gen Cert.ReferenceIdeal.Read Idealize.ShloMosaic Idealize.ShloMosaic.ValueIdx Cert.GruSpec

variable (x0 : (⟨S16x2048x1024, .f32⟩ : BufTy).Contents (Elt Ideal)) (x1 : (⟨S16x2048, .i32⟩ : BufTy).Contents (Elt Ideal))
  (x2 : (⟨S3072x1024, .f32⟩ : BufTy).Contents (Elt Ideal)) (x4 x5 : (⟨S3072, .f32⟩ : BufTy).Contents (Elt Ideal))
  (x6 : (⟨S3072x1024, .f32⟩ : BufTy).Contents (Elt Ideal)) (x8 x9 : (⟨S3072, .f32⟩ : BufTy).Contents (Elt Ideal))

/-! ## Where each operation reads, at explicit coordinates -/

section indices
variable (a : Fin 16) (b : Fin 2048) (j : Fin 3072) (h k : Fin 1024)

theorem lhs0 : lidx_main_v0 (ix3 a b j) k = ix3 a b k := by
  funext d; match d with | ⟨0, _⟩ => rfl | ⟨1, _⟩ => rfl | ⟨2, _⟩ => rfl
theorem rhs0 : ridx_main_v0 (ix3 a b j) k = ix2 j k := by
  funext d; match d with | ⟨0, _⟩ => rfl | ⟨1, _⟩ => rfl
theorem bias0 : idx_main_v1 (idx_main_v2 (ix3 a b j)) = ix1 j := by
  funext d; match d with | ⟨0, _⟩ => rfl
theorem lhs1 : lidx_main_v36 (ix3 a b j) k = ix3 a b k := by
  funext d; match d with | ⟨0, _⟩ => rfl | ⟨1, _⟩ => rfl | ⟨2, _⟩ => rfl
theorem rhs1 : ridx_main_v36 (ix3 a b j) k = ix2 j k := by
  funext d; match d with | ⟨0, _⟩ => rfl | ⟨1, _⟩ => rfl
theorem bias1 : idx_main_v37 (idx_main_v38 (ix3 a b j)) = ix1 j := by
  funext d; match d with | ⟨0, _⟩ => rfl

theorem sliceR0 : idx_main_v4 (ix3 a b h) = ix3 a b (gr h) := by
  funext d; match d with | ⟨0, _⟩ => rfl | ⟨1, _⟩ => rfl | ⟨2, _⟩ => rfl
theorem sliceZ0 : idx_main_v5 (ix3 a b h) = ix3 a b (gz h) := by
  funext d; match d with | ⟨0, _⟩ => rfl | ⟨1, _⟩ => rfl | ⟨2, _⟩ => rfl
theorem sliceN0 : idx_main_v6 (ix3 a b h) = ix3 a b (gn h) := by
  funext d; match d with | ⟨0, _⟩ => rfl | ⟨1, _⟩ => rfl | ⟨2, _⟩ => rfl
theorem sliceR1 : idx_main_v40 (ix3 a b h) = ix3 a b (gr h) := by
  funext d; match d with | ⟨0, _⟩ => rfl | ⟨1, _⟩ => rfl | ⟨2, _⟩ => rfl
theorem sliceZ1 : idx_main_v41 (ix3 a b h) = ix3 a b (gz h) := by
  funext d; match d with | ⟨0, _⟩ => rfl | ⟨1, _⟩ => rfl | ⟨2, _⟩ => rfl
theorem sliceN1 : idx_main_v42 (ix3 a b h) = ix3 a b (gn h) := by
  funext d; match d with | ⟨0, _⟩ => rfl | ⟨1, _⟩ => rfl | ⟨2, _⟩ => rfl

theorem hbR0 : idx_main_v7 (idx_main_v10 (idx_main_v11 (ix3 a b h))) = ix1 (gr h) := by
  funext d; match d with | ⟨0, _⟩ => rfl
theorem hbZ0 : idx_main_v8 (idx_main_v19 (idx_main_v20 (ix3 a b h))) = ix1 (gz h) := by
  funext d; match d with | ⟨0, _⟩ => rfl
theorem hbN0 : idx_main_v9 (idx_main_v28 (idx_main_v29 (ix3 a b h))) = ix1 (gn h) := by
  funext d; match d with | ⟨0, _⟩ => rfl
theorem hbR1 : idx_main_v43 (idx_main_v46 (idx_main_v47 (ix3 a b h))) = ix1 (gr h) := by
  funext d; match d with | ⟨0, _⟩ => rfl
theorem hbZ1 : idx_main_v44 (idx_main_v55 (idx_main_v56 (ix3 a b h))) = ix1 (gz h) := by
  funext d; match d with | ⟨0, _⟩ => rfl
theorem hbN1 : idx_main_v45 (idx_main_v64 (idx_main_v65 (ix3 a b h))) = ix1 (gn h) := by
  funext d; match d with | ⟨0, _⟩ => rfl

theorem maskAt : idx_main_v73 (idx_main_v74 (ix3 a b h)) = ix2 a b := by
  funext d; match d with | ⟨0, _⟩ => rfl | ⟨1, _⟩ => rfl
theorem swapAt : idx_main_v76 (ix3 b a h) = ix3 a b h := by
  funext d; match d with | ⟨0, _⟩ => rfl | ⟨1, _⟩ => rfl | ⟨2, _⟩ => rfl

end indices

/-! ## The two layers -/

/-- The first einsum plus its bias at (b, l, j) is the pre-activation of gate row `j` for input row (b, l). -/
theorem pre0 (a : Fin 16) (b : Fin 2048) (j : Fin 3072) :
    val_main_v3 (F := Ideal) x0 x2 x4 (ix3 a b j)
      = aff (fun k => x0 (ix3 a b k)) (fun j k => x2 (ix2 j k)) (fun j => x4 (ix1 j)) j := by
  rw [val_main_v3_apply, val_main_v0_apply, val_main_v2_apply, val_main_v1_apply, bias0]
  simp only [lhs0, rhs0]
  rfl

/-- The first layer's output at (b, l, h) is the cell over that row's pre-activations. -/
theorem layer0 (a : Fin 16) (b : Fin 2048) (h : Fin 1024) :
    val_main_v35 (F := Ideal) x0 x2 x4 x5 (ix3 a b h)
      = layer (fun k => x0 (ix3 a b k)) (fun j k => x2 (ix2 j k)) (fun j => x4 (ix1 j)) (fun j => x5 (ix1 j)) h := by
  simp only [val_main_v35_apply, val_main_v34_apply, val_main_v33_apply, val_main_cst_3_apply, val_main_v32_apply,
    val_main_v31_apply, val_main_v30_apply, val_main_v29_apply, val_main_v28_apply, val_main_v27_apply, val_main_v26_apply,
    val_main_cst_2_apply, val_main_v25_apply, val_main_v24_apply, val_main_cst_1_apply, val_main_v23_apply, val_main_v22_apply,
    val_main_v21_apply, val_main_v20_apply, val_main_v19_apply, val_main_v18_apply, val_main_v17_apply, val_main_cst_0_apply,
    val_main_v16_apply, val_main_v15_apply, val_main_cst_apply, val_main_v14_apply, val_main_v13_apply, val_main_v12_apply,
    val_main_v11_apply, val_main_v10_apply, val_main_v9_apply, val_main_v8_apply, val_main_v7_apply, val_main_v6_apply,
    val_main_v5_apply, val_main_v4_apply, sliceR0, sliceZ0, sliceN0, hbR0, hbZ0, hbN0, pre0]
  exact cell_host _ _ _ _ _ _

/-- The second einsum plus its bias at (b, l, j) is the pre-activation of gate row `j` for the first layer's row. -/
theorem pre1 (a : Fin 16) (b : Fin 2048) (j : Fin 3072) :
    val_main_v39 (F := Ideal) x0 x2 x4 x5 x6 x8 (ix3 a b j)
      = aff (fun k => val_main_v35 (F := Ideal) x0 x2 x4 x5 (ix3 a b k)) (fun j k => x6 (ix2 j k)) (fun j => x8 (ix1 j)) j := by
  rw [val_main_v39_apply, val_main_v36_apply, val_main_v38_apply, val_main_v37_apply, bias1]
  simp only [lhs1, rhs1]
  rfl

/-- The second layer's output at (b, l, h). -/
theorem layer1 (a : Fin 16) (b : Fin 2048) (h : Fin 1024) :
    val_main_v71 (F := Ideal) x0 x2 x4 x5 x6 x8 x9 (ix3 a b h)
      = layer (fun k => val_main_v35 (F := Ideal) x0 x2 x4 x5 (ix3 a b k)) (fun j k => x6 (ix2 j k)) (fun j => x8 (ix1 j)) (fun j => x9 (ix1 j)) h := by
  simp only [val_main_v71_apply, val_main_v70_apply, val_main_v69_apply, val_main_cst_8_apply, val_main_v68_apply,
    val_main_v67_apply, val_main_v66_apply, val_main_v65_apply, val_main_v64_apply, val_main_v63_apply, val_main_v62_apply,
    val_main_cst_7_apply, val_main_v61_apply, val_main_v60_apply, val_main_cst_6_apply, val_main_v59_apply, val_main_v58_apply,
    val_main_v57_apply, val_main_v56_apply, val_main_v55_apply, val_main_v54_apply, val_main_v53_apply, val_main_cst_5_apply,
    val_main_v52_apply, val_main_v51_apply, val_main_cst_4_apply, val_main_v50_apply, val_main_v49_apply, val_main_v48_apply,
    val_main_v47_apply, val_main_v46_apply, val_main_v45_apply, val_main_v44_apply, val_main_v43_apply, val_main_v42_apply,
    val_main_v41_apply, val_main_v40_apply, sliceR1, sliceZ1, sliceN1, hbR1, hbZ1, hbN1, pre1]
  exact cell_host _ _ _ _ _ _

/-- The reference's result array is the specification of its arguments. -/
theorem ref_eq :
    val_main_v76 (F := Ideal) x0 x1 x2 x4 x5 x6 x8 x9 = G x0 x1 x2 x4 x5 x6 x8 x9 := by
  funext i
  obtain ⟨l, b, h, rfl⟩ : ∃ (l : Fin 2048) (b : Fin 16) (h : Fin 1024), i = ix3 l b h := ⟨i 0, i 1, i 2, eq_ix3 i⟩
  rw [val_main_v76_apply, swapAt, val_main_v75_apply, val_main_v74_apply, val_main_v73_apply, val_main_v72_apply, maskAt, layer1]
  simp only [layer0]
  rfl

end Cert.ReferenceIdeal.RefSpec

end
-- ==== Proof.BodyRows.lean ====
/-
  The kernel body's arithmetic at one element of its output block.

  A block is 32 time steps × 16 batch entries, flattened to 512 rows (row = 16·p + q).  On those rows the body forms
  g1 = X·Wt0 + b_ih0 (X the block's input rows, Wt0 the transposed weight, contraction over the 1024 features), cuts g1
  into its reset / update / candidate lane groups, applies the cell, rounds to bf16 (the identity on ideal values), and
  repeats with Wt1, b_ih1, b_hh1.  Read at row (p, q) and lane h this is the specification's `layer (layer …)` of input row
  (p, q); the generated block function `E8` then multiplies by the mask column.
-/
import proofs.«166655_j13417477833140_2_alg».proof.Proof.ValuePatched
import proofs.«166655_j13417477833140_2_alg».proof.Proof.GruSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.GruSpec

/-- The body's one matrix-product shape: [512,1024] × [1024,3072], contracting the 1024. -/
abbrev D := dot_S512x1024_S1024x3072_S512x3072_1_0_0_1_n_n

/-- Row 16·p + q of the flattened block. -/
def row (p : Fin 32) (q : Fin 16) : Fin 512 := ⟨p.val * 16 + q.val, by have := p.isLt; have := q.isLt; omega⟩

/-! ## The matrix product at an element -/

theorem lhsRow (i : S512x3072.Idx) (c : D.contr.Idx) : (D.lhsIdx i c 0).val = (i 0).val := by
  unfold DotDims.lhsIdx
  rw [dif_neg (show ¬(0 : Fin S512x1024.rank) ∈ D.lhsBatch by decide), dif_pos (show (0 : Fin S512x1024.rank) ∈ D.lhsNonContracting by decide)]
  rfl
theorem lhsK (i : S512x3072.Idx) (c : D.contr.Idx) : (D.lhsIdx i c 1).val = (c ⟨0, by decide⟩).val :=
  D.lhsIdx_val_of_single rfl i c
theorem rhsK (i : S512x3072.Idx) (c : D.contr.Idx) : (D.rhsIdx i c 0).val = (c ⟨0, by decide⟩).val :=
  D.rhsIdx_val_of_single rfl i c
theorem rhsCol (i : S512x3072.Idx) (c : D.contr.Idx) : (D.rhsIdx i c 1).val = (i 1).val := by
  unfold DotDims.rhsIdx
  rw [dif_neg (show ¬(1 : Fin S1024x3072.rank) ∈ D.rhsBatch by decide), dif_pos (show (1 : Fin S1024x3072.rank) ∈ D.rhsNonContracting by decide)]
  rfl

/-- The product into a zero accumulator at (r, j) is the sum over the 1024 features of row r times column j. -/
theorem matmul_at {φ₁ φ₂ : FTy} (X : FVec Ideal S512x1024 φ₁) (Y : FVec Ideal S1024x3072 φ₂) (r : Fin 512) (j : Fin 3072) :
    matmul D none X Y (constant (F := Ideal) S512x3072 .f32 0x00000000#32) (ix2 r j) = ∑ k : Fin 1024, X (ix2 r k) * Y (ix2 k j) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r j) ((contrEquiv1 D 1024 rfl rfl).symm k) = ix2 r k := funext fun a => Fin.ext (by
    match a with
    | ⟨0, _⟩ => exact lhsRow _ _
    | ⟨1, _⟩ => exact (lhsK _ _).trans hk)
  have er : D.rhsIdx (ix2 r j) ((contrEquiv1 D 1024 rfl rfl).symm k) = ix2 k j := funext fun a => Fin.ext (by
    match a with
    | ⟨0, _⟩ => exact (rhsK _ _).trans hk
    | ⟨1, _⟩ => exact rhsCol _ _)
  rw [el, er]

/-! ## Layout steps at an element -/

/-- A bias [3072] laid along the lanes of every one of the 512 rows. -/
theorem biasRow (b : Vec Ideal S3072 .f32) (r : Fin 512) (j : Fin 3072) :
    broadcastTo S512x3072 (shapeCast S1x3072 b shapeCasts_S3072_S1x3072) broadcasts_S1x3072_S512x3072 (ix2 r j) = b (ix1 j) := by
  refine (broadcastTo_apply _ _ (ix2 r j) (ix2 (⟨0, Nat.one_pos⟩ : Fin 1) j) (fun a => match a with
      | ⟨0, _⟩ => by show (0 : Nat) = if (1 : Nat) = 1 then 0 else r.val; rw [if_pos rfl]
      | ⟨1, _⟩ => by show j.val = if (3072 : Nat) = 1 then 0 else j.val; rw [if_neg (by decide)])).trans ?_
  exact shapeCast_apply _ _ (ix2 (⟨0, Nat.one_pos⟩ : Fin 1) j) (ix1 j)
    (by rw [Shape.rowMajor_val_one, Shape.rowMajor_val_two]; show j.val = 0 * 3072 + j.val; omega)

/-- A group of 1024 lanes cut out of the 3072 at offset `off`, at (r, c), is lane `off + c` of row r. -/
theorem laneGroup (off : Nat) (hs : S512x3072.Slices ![0, off] S512x1024) (X : FVec Ideal S512x3072 .f32)
    (r : Fin 512) (c : Fin 1024) (g : Fin 3072) (hg : g.val = off + c.val) :
    extractStridedSlice S512x1024 ![0, off] X hs (ix2 r c) = X (ix2 r g) :=
  extractStridedSlice_apply ![0, off] X hs (ix2 r c) (ix2 r g) (fun a => match a with
    | ⟨0, _⟩ => by show r.val = 0 + r.val; omega
    | ⟨1, _⟩ => by show g.val = off + c.val; exact hg)

/-- A group of 1024 entries of a bias [3072] at offset `off`, laid along the lanes of every row, at (r, c). -/
theorem biasGroup (off : Nat) (hs : S3072.Slices ![off] S1024) (b : Vec Ideal S3072 .f32)
    (r : Fin 512) (c : Fin 1024) (g : Fin 3072) (hg : g.val = off + c.val) :
    broadcastTo S512x1024 (shapeCast S1x1024 (extractStridedSlice S1024 ![off] b hs) shapeCasts_S1024_S1x1024) broadcasts_S1x1024_S512x1024 (ix2 r c)
      = b (ix1 g) := by
  refine (broadcastTo_apply _ _ (ix2 r c) (ix2 (⟨0, Nat.one_pos⟩ : Fin 1) c) (fun a => match a with
      | ⟨0, _⟩ => by show (0 : Nat) = if (1 : Nat) = 1 then 0 else r.val; rw [if_pos rfl]
      | ⟨1, _⟩ => by show c.val = if (1024 : Nat) = 1 then 0 else c.val; rw [if_neg (by decide)])).trans ?_
  refine (shapeCast_apply _ _ (ix2 (⟨0, Nat.one_pos⟩ : Fin 1) c) (ix1 c)
    (by rw [Shape.rowMajor_val_one, Shape.rowMajor_val_two]; show c.val = 0 * 1024 + c.val; omega)).trans ?_
  exact extractStridedSlice_apply ![off] b hs (ix1 c) (ix1 g) (fun a => match a with
    | ⟨0, _⟩ => by show g.val = off + c.val; exact hg)

/-- The block [32,16,1024] flattened to [512,1024]: row 16·p + q is the block's (p, q). -/
theorem rows_at {α : Type} (v : S32x16x1024.Idx → α) (p : Fin 32) (q : Fin 16) (k : Fin 1024) :
    shapeCast S512x1024 (shapeCast S32x16x1024 v shapeCasts_S32x16x1024_S32x16x1024) shapeCasts_S32x16x1024_S512x1024 (ix2 (row p q) k)
      = v (ix3 p q k) := by
  rw [shapeCast_self]
  exact shapeCast_apply _ _ (ix2 (row p q) k) (ix3 p q k)
    (by rw [Shape.rowMajor_val_three, Shape.rowMajor_val_two]; rfl)

/-! ## The body's two stages as functions -/

section stages
variable {F : FTy → Type} [FloatOps F]

/-- Rows times a weight plus the bias along the lanes: the stacked pre-activations of all 512 rows. -/
def pre (X : FVec F S512x1024 .bf16) (W : Vec F S1024x3072 .bf16) (b : Vec F S3072 .f32) : FVec F S512x3072 .f32 :=
  have W' : FVec F S1024x3072 .bf16 := shapeCast S1024x3072 W shapeCasts_S1024x3072_S1024x3072
  have z : FVec F S512x3072 .f32 := constant S512x3072 .f32 0x00000000#32
  have mm : FVec F S512x3072 .f32 := matmul D none X W' z
  have b1 : FVec F S1x3072 .f32 := shapeCast S1x3072 b shapeCasts_S3072_S1x3072
  have bb : FVec F S512x3072 .f32 := broadcastTo S512x3072 b1 broadcasts_S1x3072_S512x3072
  addf mm bb

/-- The cell applied to all 512 rows: the three lane groups of `g`, the three groups of the hidden bias. -/
def gate (g : FVec F S512x3072 .f32) (bh : Vec F S3072 .f32) : FVec F S512x1024 .f32 :=
  have gR : FVec F S512x1024 .f32 := extractStridedSlice S512x1024 ![0, 0] g slices_S512x3072_o0_0_S512x1024
  have gZ : FVec F S512x1024 .f32 := extractStridedSlice S512x1024 ![0, 1024] g slices_S512x3072_o0_1024_S512x1024
  have gN : FVec F S512x1024 .f32 := extractStridedSlice S512x1024 ![0, 2048] g slices_S512x3072_o0_2048_S512x1024
  have hR : FVec F S1024 .f32 := extractStridedSlice S1024 ![0] bh slices_S3072_o0_S1024
  have hZ : FVec F S1024 .f32 := extractStridedSlice S1024 ![1024] bh slices_S3072_o1024_S1024
  have hN : FVec F S1024 .f32 := extractStridedSlice S1024 ![2048] bh slices_S3072_o2048_S1024
  have hR1 : FVec F S1x1024 .f32 := shapeCast S1x1024 hR shapeCasts_S1024_S1x1024
  have bR : FVec F S512x1024 .f32 := broadcastTo S512x1024 hR1 broadcasts_S1x1024_S512x1024
  have r : FVec F S512x1024 .f32 := logistic (addf gR bR)
  have hZ1 : FVec F S1x1024 .f32 := shapeCast S1x1024 hZ shapeCasts_S1024_S1x1024
  have bZ : FVec F S512x1024 .f32 := broadcastTo S512x1024 hZ1 broadcasts_S1x1024_S512x1024
  have z : FVec F S512x1024 .f32 := logistic (addf gZ bZ)
  have hN1 : FVec F S1x1024 .f32 := shapeCast S1x1024 hN shapeCasts_S1024_S1x1024
  have bN : FVec F S512x1024 .f32 := broadcastTo S512x1024 hN1 broadcasts_S1x1024_S512x1024
  have n : FVec F S512x1024 .f32 := tanh (addf gN (mulf r bN))
  have c1 : F .f32 := Scalar.ofBits .f32 0x3F800000#32
  have ones : FVec F S512x1024 .f32 := broadcast S512x1024 c1
  mulf (subf ones z) n

/-- The block's rows as a [512,1024] matrix. -/
def rowsOf (v0 : Vec F S32x16x1024 .bf16) : FVec F S512x1024 .bf16 :=
  have v1 : FVec F S32x16x1024 .bf16 := shapeCast S32x16x1024 v0 shapeCasts_S32x16x1024_S32x16x1024
  shapeCast S512x1024 v1 shapeCasts_S32x16x1024_S512x1024

/-- The body's second pre-activation is these two stages, twice, with the rounding to bf16 between them. -/
theorem k0_pay2_eq (v0 : Vec F S32x16x1024 .bf16) (v3 : Vec F S1024x3072 .bf16) (v6 v13 : Vec F S3072 .f32)
    (v34 : Vec F S1024x3072 .bf16) (v37 : Vec F S3072 .f32) :
    k0_pay2 v0 v3 v6 v13 v34 v37
      = pre (truncf .bf16 (gate (pre (rowsOf v0) v3 v6) v13) bitsLt_bf16_f32) v34 v37 := rfl

end stages

theorem pre_at (X : FVec Ideal S512x1024 .bf16) (W : Vec Ideal S1024x3072 .bf16) (b : Vec Ideal S3072 .f32) (r : Fin 512) (j : Fin 3072) :
    pre X W b (ix2 r j) = aff (fun k => X (ix2 r k)) (fun j k => W (ix2 k j)) (fun j => b (ix1 j)) j := by
  have e : pre X W b (ix2 r j)
      = matmul D none X (shapeCast S1024x3072 W shapeCasts_S1024x3072_S1024x3072) (constant (F := Ideal) S512x3072 .f32 0x00000000#32) (ix2 r j)
        + broadcastTo S512x3072 (shapeCast S1x3072 b shapeCasts_S3072_S1x3072) broadcasts_S1x3072_S512x3072 (ix2 r j) := rfl
  rw [e, shapeCast_self, matmul_at, biasRow]
  rfl

theorem gate_at (g : FVec Ideal S512x3072 .f32) (bh : Vec Ideal S3072 .f32) (r : Fin 512) (c : Fin 1024) :
    gate g bh (ix2 r c) = cell (fun j => g (ix2 r j)) (fun j => bh (ix1 j)) c := by
  have s0 := laneGroup 0 slices_S512x3072_o0_0_S512x1024 g r c (gr c) (by show c.val = 0 + c.val; omega)
  have s1 := laneGroup 1024 slices_S512x3072_o0_1024_S512x1024 g r c (gz c) rfl
  have s2 := laneGroup 2048 slices_S512x3072_o0_2048_S512x1024 g r c (gn c) rfl
  have b0 := biasGroup 0 slices_S3072_o0_S1024 bh r c (gr c) (by show c.val = 0 + c.val; omega)
  have b1 := biasGroup 1024 slices_S3072_o1024_S1024 bh r c (gz c) rfl
  have b2 := biasGroup 2048 slices_S3072_o2048_S1024 bh r c (gn c) rfl
  have e : gate g bh (ix2 r c)
      = FloatOps.mulf (FloatOps.subf (Scalar.ofBits (F := Ideal) .f32 0x3F800000#32)
          (FloatOps.logistic (FloatOps.addf (extractStridedSlice S512x1024 ![0, 1024] g slices_S512x3072_o0_1024_S512x1024 (ix2 r c))
            (broadcastTo S512x1024 (shapeCast S1x1024 (extractStridedSlice S1024 ![1024] bh slices_S3072_o1024_S1024) shapeCasts_S1024_S1x1024) broadcasts_S1x1024_S512x1024 (ix2 r c)))))
        (FloatOps.tanh (FloatOps.addf (extractStridedSlice S512x1024 ![0, 2048] g slices_S512x3072_o0_2048_S512x1024 (ix2 r c))
          (FloatOps.mulf (FloatOps.logistic (FloatOps.addf (extractStridedSlice S512x1024 ![0, 0] g slices_S512x3072_o0_0_S512x1024 (ix2 r c))
              (broadcastTo S512x1024 (shapeCast S1x1024 (extractStridedSlice S1024 ![0] bh slices_S3072_o0_S1024) shapeCasts_S1024_S1x1024) broadcasts_S1x1024_S512x1024 (ix2 r c))))
            (broadcastTo S512x1024 (shapeCast S1x1024 (extractStridedSlice S1024 ![2048] bh slices_S3072_o2048_S1024) shapeCasts_S1024_S1x1024) broadcasts_S1x1024_S512x1024 (ix2 r c))))) := rfl
  rw [e, s0, s1, s2, b0, b1, b2]
  exact cell_unit _ _ _ _ _ _

/-- The body's second pre-activation at row (p, q), gate row j. -/
theorem k2_at (P0 : Vec Ideal S32x16x1024 .bf16) (P1 : Vec Ideal S1024x3072 .bf16) (P2 P3 : Vec Ideal S3072 .f32)
    (P4 : Vec Ideal S1024x3072 .bf16) (P5 : Vec Ideal S3072 .f32) (p : Fin 32) (q : Fin 16) (j : Fin 3072) :
    k0_pay2 P0 P1 P2 P3 P4 P5 (ix2 (row p q) j)
      = aff (layer (fun k => P0 (ix3 p q k)) (fun j k => P1 (ix2 k j)) (fun j => P2 (ix1 j)) (fun j => P3 (ix1 j)))
          (fun j k => P4 (ix2 k j)) (fun j => P5 (ix1 j)) j := by
  rw [k0_pay2_eq, pre_at]
  refine congrArg (fun f => aff f (fun j k => P4 (ix2 k j)) (fun j => P5 (ix1 j)) j) (funext fun k => ?_)
  show gate (pre (rowsOf P0) P1 P2) P3 (ix2 (row p q) k) = _
  rw [gate_at]
  unfold layer
  refine congrArg (fun g => cell g (fun j => P3 (ix1 j)) k) (funext fun j' => ?_)
  rw [pre_at]
  exact congrArg (fun f => aff f (fun j k => P1 (ix2 k j)) (fun j => P2 (ix1 j)) j') (funext fun k' => rows_at P0 p q k')

/-! ## The block function at an element -/

section indices
variable (p : Fin 32) (q : Fin 16) (h : Fin 1024)
theorem i0 : ValueP.ix8_0 (ix3 p q h) = ix2 (row p q) (gz h) := by
  funext d; apply Fin.ext; match d with | ⟨0, _⟩ => rfl | ⟨1, _⟩ => show h.val + 1024 = 1024 + h.val; omega
theorem i1 : ValueP.ix8_1 (ix3 p q h) = ix1 (gz h) := by
  funext d; apply Fin.ext; match d with | ⟨0, _⟩ => show h.val + 1024 = 1024 + h.val; omega
theorem i2 : ValueP.ix8_2 (ix3 p q h) = ix2 (row p q) (gn h) := by
  funext d; apply Fin.ext; match d with | ⟨0, _⟩ => rfl | ⟨1, _⟩ => show h.val + 2048 = 2048 + h.val; omega
theorem i3 : ValueP.ix8_3 (ix3 p q h) = ix2 (row p q) (gr h) := by
  funext d; apply Fin.ext; match d with | ⟨0, _⟩ => rfl | ⟨1, _⟩ => rfl
theorem i4 : ValueP.ix8_4 (ix3 p q h) = ix1 (gr h) := by
  funext d; apply Fin.ext; match d with | ⟨0, _⟩ => rfl
theorem i5 : ValueP.ix8_5 (ix3 p q h) = ix1 (gn h) := by
  funext d; apply Fin.ext; match d with | ⟨0, _⟩ => show h.val + 2048 = 2048 + h.val; omega
theorem i6 : ValueP.ix8_6 (ix3 p q h) = ix3 p q (⟨0, Nat.one_pos⟩ : Fin 1) := by
  funext d; apply Fin.ext; match d with | ⟨0, _⟩ => rfl | ⟨1, _⟩ => rfl | ⟨2, _⟩ => rfl
end indices

/-- What the body leaves at block element (p, q, h): the two stacked cells of input row (p, q) at unit h, times the mask
    entry of (p, q). -/
theorem E8_at (P0 : Vec Ideal S32x16x1024 .bf16) (P1 : Vec Ideal S1024x3072 .bf16) (P2 P3 : Vec Ideal S3072 .f32)
    (P4 : Vec Ideal S1024x3072 .bf16) (P5 P6 : Vec Ideal S3072 .f32) (P7 : Vec Ideal S32x16x1 .f32) (p : Fin 32) (q : Fin 16) (h : Fin 1024) :
    ValueP.E8 P0 P1 P2 P3 P4 P5 P6 P7 (ix3 p q h)
      = layer (layer (fun k => P0 (ix3 p q k)) (fun j k => P1 (ix2 k j)) (fun j => P2 (ix1 j)) (fun j => P3 (ix1 j)))
          (fun j k => P4 (ix2 k j)) (fun j => P5 (ix1 j)) (fun j => P6 (ix1 j)) h
        * P7 (ix3 p q (⟨0, Nat.one_pos⟩ : Fin 1)) := by
  unfold ValueP.E8
  rw [i0, i1, i2, i3, i4, i5, i6, k2_at, k2_at, k2_at]
  rfl

end Cert.KernelIdeal.Body

end
-- ==== Proof.Blocks.lean ====
/-
  From blocks to the whole array.

  The grid has 64 points; point t stages time steps 32·t … 32·t + 31 of the time-major input and of the mask, the whole of
  both transposed weights and of the four biases, and writes back time steps 32·t … 32·t + 31 of the result.  The arrays the
  region finds were made by the host just before it: the input and the mask with batch and time swapped (and the mask
  converted to a number and given a unit axis), the weights transposed; the roundings to bf16 are the identity on ideal
  values.  So element (p, q, h) of point t's block is the specification at (32·t + p, q, h), the 64 blocks tile the 2048
  time steps, and the result array ends holding the specification of the arguments.
-/
import proofs.«166655_j13417477833140_2_alg».proof.Proof.ValuePatched
import proofs.«166655_j13417477833140_2_alg».proof.Proof.BodyRows
import proofs.«166655_j13417477833140_2_alg».proof.Proof.GruSpec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx Cert.GruSpec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The time step of row p of point t's block. -/
def timeOf (t : Fin cfg0.N) (p : Fin 32) : Fin 2048 :=
  ⟨t.val * 32 + p.val, by have h : t.val < 64 := lt_of_lt_of_eq t.isLt N_0; have := p.isLt; omega⟩

/-- The printed index maps over the grid: the input, the mask and the result move one block of 32 time steps per point;
    the weights and the biases stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-! ## What the region finds in the arrays the host made -/

theorem V_x (c : Dev nD) : (V m c main_v1 : S2048x16x1024.Idx → EReal)
    = truncf (F := Ideal) .bf16 (transpose S2048x16x1024 [1, 0, 2] (m ((c : Thread nD τ).loc main_arg0)) transposes_S16x2048x1024_S2048x16x1024_1_0_2) bitsLt_bf16_f32 := by
  dsimp only [V, hostOps0]; after_results

theorem V_mask (c : Dev nD) : (V m c main_v4 : S2048x16x1.Idx → EReal)
    = broadcastInDim S2048x16x1 ![0, 1] bcast_S2048x16_S2048x16x1_0_1
        (sitofp (F := Ideal) .f32 (transpose S2048x16 [1, 0] (m ((c : Thread nD τ).loc main_arg1)) transposes_S16x2048_S2048x16_1_0)) := by
  dsimp only [V, hostOps0]; after_results

theorem V_w0 (c : Dev nD) : (V m c main_v6 : S1024x3072.Idx → EReal)
    = truncf (F := Ideal) .bf16 (transpose S1024x3072 [1, 0] (m ((c : Thread nD τ).loc main_arg2)) transposes_S3072x1024_S1024x3072_1_0) bitsLt_bf16_f32 := by
  dsimp only [V, hostOps0]; after_results

theorem V_w1 (c : Dev nD) : (V m c main_v8 : S1024x3072.Idx → EReal)
    = truncf (F := Ideal) .bf16 (transpose S1024x3072 [1, 0] (m ((c : Thread nD τ).loc main_arg6)) transposes_S3072x1024_S1024x3072_1_0) bitsLt_bf16_f32 := by
  dsimp only [V, hostOps0]; after_results

/-- The time-major input at (l, b, k) is the argument at (b, l, k). -/
theorem x_at (c : Dev nD) (l : Fin 2048) (b : Fin 16) (k : Fin 1024) :
    (V m c main_v1 : S2048x16x1024.Idx → EReal) (ix3 l b k) = (m ((c : Thread nD τ).loc main_arg0) : S16x2048x1024.Idx → EReal) (ix3 b l k) := by
  rw [V_x]
  exact transpose_apply [1, 0, 2] _ transposes_S16x2048x1024_S2048x16x1024_1_0_2 (ix3 l b k) (ix3 b l k)
    (fun d => match d with | ⟨0, _⟩ => rfl | ⟨1, _⟩ => rfl | ⟨2, _⟩ => rfl)

/-- The time-major mask column at (l, b, 0) is the mask word of (b, l) read as a number. -/
theorem mask_at (c : Dev nD) (l : Fin 2048) (b : Fin 16) :
    (V m c main_v4 : S2048x16x1.Idx → EReal) (ix3 l b (⟨0, Nat.one_pos⟩ : Fin 1)) = maskVal ((m ((c : Thread nD τ).loc main_arg1) : S16x2048.Idx → BitVec 32) (ix2 b l)) := by
  rw [V_mask]
  refine (broadcastInDim_apply _ bcast_S2048x16_S2048x16x1_0_1 _ (ix3 l b (⟨0, Nat.one_pos⟩ : Fin 1)) (ix2 l b) (fun a => match a with
    | ⟨0, _⟩ => by show l.val = if (2048 : Nat) = 1 then 0 else l.val; rw [if_neg (by decide)]
    | ⟨1, _⟩ => by show b.val = if (16 : Nat) = 1 then 0 else b.val; rw [if_neg (by decide)])).trans ?_
  show maskVal (transpose S2048x16 [1, 0] (m ((c : Thread nD τ).loc main_arg1)) transposes_S16x2048_S2048x16_1_0 (ix2 l b)) = _
  exact congrArg maskVal (transpose_apply [1, 0] _ transposes_S16x2048_S2048x16_1_0 (ix2 l b) (ix2 b l)
    (fun d => match d with | ⟨0, _⟩ => rfl | ⟨1, _⟩ => rfl))

/-- A transposed weight at (k, j) is the argument at (j, k). -/
theorem w0_at (c : Dev nD) (k : Fin 1024) (j : Fin 3072) :
    (V m c main_v6 : S1024x3072.Idx → EReal) (ix2 k j) = (m ((c : Thread nD τ).loc main_arg2) : S3072x1024.Idx → EReal) (ix2 j k) := by
  rw [V_w0]
  exact transpose_apply [1, 0] _ transposes_S3072x1024_S1024x3072_1_0 (ix2 k j) (ix2 j k)
    (fun d => match d with | ⟨0, _⟩ => rfl | ⟨1, _⟩ => rfl)

theorem w1_at (c : Dev nD) (k : Fin 1024) (j : Fin 3072) :
    (V m c main_v8 : S1024x3072.Idx → EReal) (ix2 k j) = (m ((c : Thread nD τ).loc main_arg6) : S3072x1024.Idx → EReal) (ix2 j k) := by
  rw [V_w1]
  exact transpose_apply [1, 0] _ transposes_S3072x1024_S1024x3072_1_0 (ix2 k j) (ix2 j k)
    (fun d => match d with | ⟨0, _⟩ => rfl | ⟨1, _⟩ => rfl)

/-! ## The windows' blocks at a point, as entries of the arguments -/

theorem blk_x (c : Dev nD) (t : Fin cfg0.N) (p : Fin 32) (q : Fin 16) (k : Fin 1024) :
    (iblk m c 0 t : Vec Ideal S32x16x1024 .bf16) (ix3 p q k) = (m ((c : Thread nD τ).loc main_arg0) : S16x2048x1024.Idx → EReal) (ix3 q (timeOf t p) k) := by
  obtain ⟨e0, e1, e2, -⟩ := idx_facts t
  unfold iblk
  rw [View.read_apply]
  show (V m c main_v1 : S2048x16x1024.Idx → EReal) (((cfg0.win 0).blk t).view.emb (ix3 p q k)) = _
  have hemb : ((cfg0.win 0).blk t).view.emb (ix3 p q k) = (ix3 (timeOf t p) q k : S2048x16x1024.Idx) := by
    funext a; apply Fin.ext
    match a with
    | ⟨0, _⟩ => show win0_0.index t (0 : Fin 3) * 32 + 1 * p.val = t.val * 32 + p.val; rw [e0]; omega
    | ⟨1, _⟩ => show win0_0.index t (1 : Fin 3) * 16 + 1 * q.val = q.val; rw [e1]; omega
    | ⟨2, _⟩ => show win0_0.index t (2 : Fin 3) * 1024 + 1 * k.val = k.val; rw [e2]; omega
  rw [hemb]
  exact x_at m c (timeOf t p) q k

theorem blk_mask (c : Dev nD) (t : Fin cfg0.N) (p : Fin 32) (q : Fin 16) :
    (iblk m c 1 t : Vec Ideal S32x16x1 .f32) (ix3 p q (⟨0, Nat.one_pos⟩ : Fin 1))
      = maskVal ((m ((c : Thread nD τ).loc main_arg1) : S16x2048.Idx → BitVec 32) (ix2 q (timeOf t p))) := by
  obtain ⟨-, -, -, e0, e1, e2, -⟩ := idx_facts t
  unfold iblk
  rw [View.read_apply]
  show (V m c main_v4 : S2048x16x1.Idx → EReal) (((cfg0.win 1).blk t).view.emb (ix3 p q (⟨0, Nat.one_pos⟩ : Fin 1))) = _
  have hemb : ((cfg0.win 1).blk t).view.emb (ix3 p q (⟨0, Nat.one_pos⟩ : Fin 1)) = (ix3 (timeOf t p) q (⟨0, Nat.one_pos⟩ : Fin 1) : S2048x16x1.Idx) := by
    funext a; apply Fin.ext
    match a with
    | ⟨0, _⟩ => show win0_1.index t (0 : Fin 3) * 32 + 1 * p.val = t.val * 32 + p.val; rw [e0]; omega
    | ⟨1, _⟩ => show win0_1.index t (1 : Fin 3) * 16 + 1 * q.val = q.val; rw [e1]; omega
    | ⟨2, _⟩ => show win0_1.index t (2 : Fin 3) * 1 + 1 * 0 = 0; rw [e2]
  rw [hemb]
  exact mask_at m c (timeOf t p) q

theorem blk_w0 (c : Dev nD) (t : Fin cfg0.N) (k : Fin 1024) (j : Fin 3072) :
    (iblk m c 2 t : Vec Ideal S1024x3072 .bf16) (ix2 k j) = (m ((c : Thread nD τ).loc main_arg2) : S3072x1024.Idx → EReal) (ix2 j k) := by
  obtain ⟨-, -, -, -, -, -, e0, e1, -⟩ := idx_facts t
  unfold iblk
  rw [View.read_apply]
  show (V m c main_v6 : S1024x3072.Idx → EReal) (((cfg0.win 2).blk t).view.emb (ix2 k j)) = _
  have hemb : ((cfg0.win 2).blk t).view.emb (ix2 k j) = (ix2 k j : S1024x3072.Idx) := by
    funext a; apply Fin.ext
    match a with
    | ⟨0, _⟩ => show win0_2.index t (0 : Fin 2) * 1024 + 1 * k.val = k.val; rw [e0]; omega
    | ⟨1, _⟩ => show win0_2.index t (1 : Fin 2) * 3072 + 1 * j.val = j.val; rw [e1]; omega
  rw [hemb]
  exact w0_at m c k j

theorem blk_w1 (c : Dev nD) (t : Fin cfg0.N) (k : Fin 1024) (j : Fin 3072) :
    (iblk m c 5 t : Vec Ideal S1024x3072 .bf16) (ix2 k j) = (m ((c : Thread nD τ).loc main_arg6) : S3072x1024.Idx → EReal) (ix2 j k) := by
  obtain ⟨-, -, -, -, -, -, -, -, -, -, e0, e1, -⟩ := idx_facts t
  unfold iblk
  rw [View.read_apply]
  show (V m c main_v8 : S1024x3072.Idx → EReal) (((cfg0.win 5).blk t).view.emb (ix2 k j)) = _
  have hemb : ((cfg0.win 5).blk t).view.emb (ix2 k j) = (ix2 k j : S1024x3072.Idx) := by
    funext a; apply Fin.ext
    match a with
    | ⟨0, _⟩ => show win0_5.index t (0 : Fin 2) * 1024 + 1 * k.val = k.val; rw [e0]; omega
    | ⟨1, _⟩ => show win0_5.index t (1 : Fin 2) * 3072 + 1 * j.val = j.val; rw [e1]; omega
  rw [hemb]
  exact w1_at m c k j

theorem blk_b3 (c : Dev nD) (t : Fin cfg0.N) (j : Fin 3072) :
    (iblk m c 3 t : Vec Ideal S3072 .f32) (ix1 j) = (m ((c : Thread nD τ).loc main_arg4) : S3072.Idx → EReal) (ix1 j) := by
  obtain ⟨-, -, -, -, -, -, -, -, e0, -⟩ := idx_facts t
  unfold iblk
  rw [View.read_apply]
  show (V m c main_arg4 : S3072.Idx → EReal) (((cfg0.win 3).blk t).view.emb (ix1 j)) = _
  have hemb : ((cfg0.win 3).blk t).view.emb (ix1 j) = (ix1 j : S3072.Idx) := by
    funext a; apply Fin.ext
    match a with
    | ⟨0, _⟩ => show win0_3.index t (0 : Fin 1) * 3072 + 1 * j.val = j.val; rw [e0]; omega
  rw [hemb, V_main_arg4]

theorem blk_b4 (c : Dev nD) (t : Fin cfg0.N) (j : Fin 3072) :
    (iblk m c 4 t : Vec Ideal S3072 .f32) (ix1 j) = (m ((c : Thread nD τ).loc main_arg5) : S3072.Idx → EReal) (ix1 j) := by
  obtain ⟨-, -, -, -, -, -, -, -, -, e0, -⟩ := idx_facts t
  unfold iblk
  rw [View.read_apply]
  show (V m c main_arg5 : S3072.Idx → EReal) (((cfg0.win 4).blk t).view.emb (ix1 j)) = _
  have hemb : ((cfg0.win 4).blk t).view.emb (ix1 j) = (ix1 j : S3072.Idx) := by
    funext a; apply Fin.ext
    match a with
    | ⟨0, _⟩ => show win0_4.index t (0 : Fin 1) * 3072 + 1 * j.val = j.val; rw [e0]; omega
  rw [hemb, V_main_arg5]

theorem blk_b6 (c : Dev nD) (t : Fin cfg0.N) (j : Fin 3072) :
    (iblk m c 6 t : Vec Ideal S3072 .f32) (ix1 j) = (m ((c : Thread nD τ).loc main_arg8) : S3072.Idx → EReal) (ix1 j) := by
  obtain ⟨-, -, -, -, -, -, -, -, -, -, -, -, e0, -⟩ := idx_facts t
  unfold iblk
  rw [View.read_apply]
  show (V m c main_arg8 : S3072.Idx → EReal) (((cfg0.win 6).blk t).view.emb (ix1 j)) = _
  have hemb : ((cfg0.win 6).blk t).view.emb (ix1 j) = (ix1 j : S3072.Idx) := by
    funext a; apply Fin.ext
    match a with
    | ⟨0, _⟩ => show win0_6.index t (0 : Fin 1) * 3072 + 1 * j.val = j.val; rw [e0]; omega
  rw [hemb, V_main_arg8]

theorem blk_b7 (c : Dev nD) (t : Fin cfg0.N) (j : Fin 3072) :
    (iblk m c 7 t : Vec Ideal S3072 .f32) (ix1 j) = (m ((c : Thread nD τ).loc main_arg9) : S3072.Idx → EReal) (ix1 j) := by
  obtain ⟨-, -, -, -, -, -, -, -, -, -, -, -, -, e0, -⟩ := idx_facts t
  unfold iblk
  rw [View.read_apply]
  show (V m c main_arg9 : S3072.Idx → EReal) (((cfg0.win 7).blk t).view.emb (ix1 j)) = _
  have hemb : ((cfg0.win 7).blk t).view.emb (ix1 j) = (ix1 j : S3072.Idx) := by
    funext a; apply Fin.ext
    match a with
    | ⟨0, _⟩ => show win0_7.index t (0 : Fin 1) * 3072 + 1 * j.val = j.val; rw [e0]; omega
  rw [hemb, V_main_arg9]

/-! ## What a point writes back -/

/-- Element (p, q, h) of what point t leaves in the result's buffer is the specification at (32·t + p, q, h). -/
theorem point_eq (c : Dev nD) (t : Fin cfg0.N) (p : Fin 32) (q : Fin 16) (h : Fin 1024) :
    out0_8 (iblk m c 0 t) (iblk m c 1 t) (iblk m c 2 t) (iblk m c 3 t) (iblk m c 4 t) (iblk m c 5 t) (iblk m c 6 t) (iblk m c 7 t) (ix3 p q h)
      = G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (ix3 (timeOf t p) q h) := by
  unfold out0_8
  refine (ValueP.canon8_eq (View.ld (iblk m c 0 t) r0_0) (View.ld (iblk m c 2 t) r0_1) (View.ld (iblk m c 3 t) r0_2) (View.ld (iblk m c 4 t) r0_2)
    (View.ld (iblk m c 5 t) r0_1) (View.ld (iblk m c 6 t) r0_2) (View.ld (iblk m c 7 t) r0_2) (View.ld (iblk m c 1 t) r0_3) (ix3 p q h)).trans ?_
  simp only [View.ld_unit_zero (S := S32x16x1024) hz3, View.ld_unit_zero (S := S1024x3072) hz2, View.ld_unit_zero (S := S3072) hz1,
    View.ld_unit_zero (S := S32x16x1) hz3]
  refine (Body.E8_at (iblk m c 0 t) (iblk m c 2 t) (iblk m c 3 t) (iblk m c 4 t) (iblk m c 5 t) (iblk m c 6 t) (iblk m c 7 t) (iblk m c 1 t) p q h).trans ?_
  rw [blk_mask m c t p q]
  simp only [blk_x m c t p q, blk_w0 m c t, blk_w1 m c t, blk_b3 m c t, blk_b4 m c t, blk_b6 m c t, blk_b7 m c t]
  rfl

/-- WHAT POINT `t` WRITES BACK is block `t` of the specification of the argument arrays. -/
theorem flushed_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) := by
  obtain ⟨-, -, -, -, -, -, -, -, -, -, -, -, -, -, e0, e1, e2⟩ := idx_facts t
  rw [ValueP.flushed8]
  funext y
  show out0_8 (iblk m c 0 t) (iblk m c 1 t) (iblk m c 2 t) (iblk m c 3 t) (iblk m c 4 t) (iblk m c 5 t) (iblk m c 6 t) (iblk m c 7 t) y = G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (((cfg0.win 8).blk t).view.emb y)
  have hy : y = (ix3 (y 0 : Fin 32) (y 1 : Fin 16) (y 2 : Fin 1024) : S32x16x1024.Idx) := eq_ix3 (y : S32x16x1024.Idx)
  have hemb : ((cfg0.win 8).blk t).view.emb y = (ix3 (timeOf t (y 0 : Fin 32)) (y 1 : Fin 16) (y 2 : Fin 1024) : S2048x16x1024.Idx) := by
    funext a; apply Fin.ext
    match a with
    | ⟨0, _⟩ => show win0_8.index t (0 : Fin 3) * 32 + 1 * (y 0).val = t.val * 32 + (y 0).val; rw [e0]; omega
    | ⟨1, _⟩ => show win0_8.index t (1 : Fin 3) * 16 + 1 * (y 1).val = (y 1).val; rw [e1]; omega
    | ⟨2, _⟩ => show win0_8.index t (2 : Fin 3) * 1024 + 1 * (y 2).val = (y 2).val; rw [e2]; omega
  rw [hemb]
  exact (congrArg (out0_8 (iblk m c 0 t) (iblk m c 1 t) (iblk m c 2 t) (iblk m c 3 t) (iblk m c 4 t) (iblk m c 5 t) (iblk m c 6 t) (iblk m c 7 t)) hy).trans (point_eq m c t (y 0 : Fin 32) (y 1 : Fin 16) (y 2 : Fin 1024))

/-! ## The blocks tile the result -/

theorem mem_blk (t : Fin cfg0.N) (i : S2048x16x1024.Idx) :
    i ∈ ((cfg0.win 8).blk t).view.set ↔ ∀ a : Fin 3, win0_8.index t a * S32x16x1024.size a ≤ (i a).val ∧ (i a).val < win0_8.index t a * S32x16x1024.size a + S32x16x1024.size a := by
  show i ∈ ((View.whole main_v9).slice (win0_8.rect t)).set ↔ _
  rw [View.set_slice_whole, Rect.mem_set_unit]
  exact Iff.rfl

/-- Time step l lies in the block of point l / 32. -/
theorem cover (i : S2048x16x1024.Idx) : ∃ t : Fin cfg0.N, (cfg0.win 8).flush t = true ∧ i ∈ ((cfg0.win 8).blk t).view.set := by
  have hi0 : (i 0).val < 2048 := (i 0).isLt
  have hi1 : (i 1).val < 16 := (i 1).isLt
  have hi2 : (i 2).val < 1024 := (i 2).isLt
  have hN : cfg0.N = 64 := N_0
  let t : Fin cfg0.N := ⟨(i 0).val / 32, by rw [hN]; omega⟩
  obtain ⟨-, -, -, -, -, -, -, -, -, -, -, -, -, -, e0, e1, e2⟩ := idx_facts t
  have ht : t.val = (i 0).val / 32 := rfl
  refine ⟨t, flush0_8 t, ?_⟩
  rw [mem_blk]
  intro a
  match a with
  | ⟨0, _⟩ => show win0_8.index t (0 : Fin 3) * 32 ≤ (i 0).val ∧ (i 0).val < win0_8.index t (0 : Fin 3) * 32 + 32; rw [e0, ht]; omega
  | ⟨1, _⟩ => show win0_8.index t (1 : Fin 3) * 16 ≤ (i 1).val ∧ (i 1).val < win0_8.index t (1 : Fin 3) * 16 + 16; rw [e1]; omega
  | ⟨2, _⟩ => show win0_8.index t (2 : Fin 3) * 1024 ≤ (i 2).val ∧ (i 2).val < win0_8.index t (2 : Fin 3) * 1024 + 1024; rw [e2]; omega

/-- THE RESULT ARRAY after the run is the specification of the argument arrays. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) :=
  (dats m 0 c).arrAt_eq_of_cover 8 (G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))) (fun t _ => flushed_eq m c t) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v9) = G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (ValueP.run_blocks m ρ)

end Cert.KernelIdeal.Blocks

end
-- ==== Proof.lean ====
/-
  Two stacked GRU cells run from the zero hidden state at every (batch, time) position, masked, time-major.

  With the hidden state zero the recurrent weights drop out, so each layer is
      g = W x + b_ih,   r = σ(g_r + b_hr),   z = σ(g_z + b_hz),   n = tanh(g_n + r · b_hn),   h = (1 − z) · n,
  the second layer takes the first layer's h as its x, and the output is h₂ times the integer mask, stored at
  (time, batch, unit).  `Cert.GruSpec.G` states this once, index by index, on the extended reals.

  The kernel works on blocks of 32 time steps: it flattens (32, 16) to 512 rows, multiplies them by the transposed weights
  on the matrix unit, applies the cell with the vector unit's own sigmoid, and writes the block back; the reference
  contracts the untransposed arrays on the host, writes each sigmoid as 1 / (1 + exp(−·)), and transposes at the end.
  At the ideal values a matrix product is the plain sum over the 1024 features in either layout, the bf16 roundings are the
  identity, the two spellings of the sigmoid are one function (the f32 word 1.0 denotes 1), and transposes and reshapes only
  re-index.  No law of the extended reals beyond these is used, so the finiteness precondition is never opened.

  `Proof/RefIsSpec.lean`: the reference's result is `G` of the arguments.  `Proof/BodyRows.lean`: the kernel body at a block
  element.  `Proof/Blocks.lean`: the blocks as entries of the arguments, the tiling, the kernel's run.
-/
import proofs.«166655_j13417477833140_2_alg».proof.Defs
import proofs.«166655_j13417477833140_2_alg».proof.Proof.Gen.Kernel
import proofs.«166655_j13417477833140_2_alg».proof.Proof.Gen.Kernel.Frame
import proofs.«166655_j13417477833140_2_alg».proof.Proof.Gen.KernelIdeal
import proofs.«166655_j13417477833140_2_alg».proof.Proof.Gen.KernelIdeal.Frame
import proofs.«166655_j13417477833140_2_alg».proof.Proof.Gen.ReferenceIdeal
import proofs.«166655_j13417477833140_2_alg».proof.Proof.Gen.Pre_finite_inputs
import proofs.«166655_j13417477833140_2_alg».proof.Proof.Gen.ReferenceIdeal.Run
import proofs.«166655_j13417477833140_2_alg».proof.Proof.Gen.ReferenceIdeal.Read
import proofs.«166655_j13417477833140_2_alg».proof.Proof.GruSpec
import proofs.«166655_j13417477833140_2_alg».proof.Proof.RefIsSpec
import proofs.«166655_j13417477833140_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of those arguments. -/
theorem algebraic : Cert.algebraic_KernelIdeal_ReferenceIdeal := by
  intro m ρ m' ρ' _ hagree
  refine ⟨fun c => Cert.GruSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefSpec.ref_eq]
  obtain ⟨h0, h1, h2, -, h4, h5, h6, -, h8, h9⟩ := hagree c
  rw [h0, h1, h2, h4, h5, h6, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
